-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S1024x3 : Shape := ⟨2, ![1024, 3]⟩
abbrev S1024x1 : Shape := ⟨2, ![1024, 1]⟩
abbrev S1024 : Shape := ⟨1, ![1024]⟩
abbrev S_ : Shape := ⟨0, ![]⟩

class Facts : Prop where
  slices_S1024x3_S1024x1_0_0 : S1024x3.Slices ![0, 0] S1024x1
  shapeCasts_S1024x1_S1024 : S1024x1.ShapeCasts S1024
  slices_S1024x3_S1024x1_0_1 : S1024x3.Slices ![0, 1] S1024x1
  slices_S1024x3_S1024x1_0_2 : S1024x3.Slices ![0, 2] S1024x1
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S1024 : S_.BroadcastsInDim S1024 (![] : Fin 0 → Fin S1024.rank)

variable [Facts]

def fn_part1 {F : FTy → Type} [FloatOps F] (main_v3 : IVec S1024 32) (main_v5 : IVec S1024 32) (main_v16 : IVec S1024 1) (main_v18 : IVec S1024 1) : IVec S1024 1 :=
  let main_v19 : IVec S1024 1 := andi main_v16 main_v18
  let main_c_3 : IVec S_ 32 := constantI S_ 32 16#32
  let main_v20 : IVec S1024 32 := broadcastInDim S1024 ![] bcast_S_S1024 main_c_3
  let main_v21 : IVec S1024 1 := cmpi .slt main_v3 main_v20
  let main_v22 : IVec S1024 1 := andi main_v19 main_v21
  let main_c_4 : IVec S_ 32 := constantI S_ 32 0#32
  let main_v23 : IVec S1024 32 := broadcastInDim S1024 ![] bcast_S_S1024 main_c_4
  let main_v24 : IVec S1024 1 := cmpi .sge main_v5 main_v23
  let main_v25 : IVec S1024 1 := andi main_v22 main_v24
  let main_c_5 : IVec S_ 32 := constantI S_ 32 16#32
  let main_v26 : IVec S1024 32 := broadcastInDim S1024 ![] bcast_S_S1024 main_c_5
  let main_v27 : IVec S1024 1 := cmpi .slt main_v5 main_v26
  let main_v28 : IVec S1024 1 := andi main_v25 main_v27
  main_v28

def fn {F : FTy → Type} [FloatOps F] (main_arg0 : FVec F S8x64x256x256 .f32) (main_arg1 : IVec S1024x3 32) : IVec S1024 1 :=
  let main_v0 : IVec S1024x1 32 := (extractStridedSlice S1024x1 ![0, 0] · slices_S1024x3_S1024x1_0_0) main_arg1
  let main_v1 : IVec S1024 32 := shapeCast S1024 main_v0 shapeCasts_S1024x1_S1024
  let main_v2 : IVec S1024x1 32 := (extractStridedSlice S1024x1 ![0, 1] · slices_S1024x3_S1024x1_0_1) main_arg1
  let main_v3 : IVec S1024 32 := shapeCast S1024 main_v2 shapeCasts_S1024x1_S1024
  let main_v4 : IVec S1024x1 32 := (extractStridedSlice S1024x1 ![0, 2] · slices_S1024x3_S1024x1_0_2) main_arg1
  let main_v5 : IVec S1024 32 := shapeCast S1024 main_v4 shapeCasts_S1024x1_S1024
  let main_v6 : FVec F S8x64x256x256 .f32 := Host.absf main_arg0
  let main_cst : FVec F S_ .f32 := constant S_ .f32 0x7F800000#32
  let main_v7 : FVec F S8x64x256x256 .f32 := broadcastInDim S8x64x256x256 ![] bcast_S_S8x64x256x256 main_cst
  let main_v8 : IVec S8x64x256x256 1 := cmpf .olt main_v6 main_v7
  let main_c : IVec S_ 1 := constantI S_ 1 1#1
  let main_v9 : IVec S_ 1 := (fun x v => Host.reduce IntOp.andi x v reducesTo_S8x64x256x256_S_d0_1_2_3 h_S_) main_v8 main_c
  let main_c_0 : IVec S_ 32 := constantI S_ 32 0#32
  let main_v10 : IVec S1024 32 := broadcastInDim S1024 ![] bcast_S_S1024 main_c_0
  let main_v11 : IVec S1024 1 := cmpi .sge main_v1 main_v10
  let main_v12 : IVec S1024 1 := broadcastInDim S1024 ![] bcast_S_S1024 main_v9
  let main_v13 : IVec S1024 1 := andi main_v12 main_v11
  let main_c_1 : IVec S_ 32 := constantI S_ 32 8#32
  let main_v14 : IVec S1024 32 := broadcastInDim S1024 ![] bcast_S_S1024 main_c_1
  let main_v15 : IVec S1024 1 := cmpi .slt main_v1 main_v14
  let main_v16 : IVec S1024 1 := andi main_v13 main_v15
  let main_c_2 : IVec S_ 32 := constantI S_ 32 0#32
  let main_v17 : IVec S1024 32 := broadcastInDim S1024 ![] bcast_S_S1024 main_c_2
  let main_v18 : IVec S1024 1 := cmpi .sge main_v3 main_v17
  fn_part1 (F := F) main_v3 main_v5 main_v16 main_v18
-- ==== Kernel.lean ====
abbrev S8x64x256x256 : Shape := ⟨4, ![8, 64, 256, 256]⟩
abbrev S1024x3 : Shape := ⟨2, ![1024, 3]⟩
abbrev S1024x1 : Shape := ⟨2, ![1024, 1]⟩
abbrev S1024 : Shape := ⟨1, ![1024]⟩
abbrev S1024x64x16x16 : Shape := ⟨4, ![1024, 64, 16, 16]⟩
abbrev S1x64x16x256 : Shape := ⟨4, ![1, 64, 16, 256]⟩
abbrev S1 : Shape := ⟨1, ![1]⟩
abbrev S1x64x16x16 : Shape := ⟨4, ![1, 64, 16, 16]⟩
abbrev S64x16x256 : Shape := ⟨3, ![64, 16, 256]⟩
abbrev S64x16x16x16 : Shape := ⟨4, ![64, 16, 16, 16]⟩
abbrev S1x1x16x1 : Shape := ⟨4, ![1, 1, 16, 1]⟩
abbrev S64x16x16 : Shape := ⟨3, ![64, 16, 16]⟩

abbrev nBuf : Space → Nat
  | .hbm => 6
  | .vmem => 4
  | .smem => 3
  | _ => 0

abbrev bufTy : (tb : Table) → Fin (tcTables nBuf tb) → BufTy
  | .hbm, ⟨0, _⟩ => ⟨S8x64x256x256, .f32⟩
  | .hbm, ⟨1, _⟩ => ⟨S1024x3, .i32⟩
  | .hbm, ⟨2, _⟩ => ⟨S1024x1, .i32⟩
  | .hbm, ⟨3, _⟩ => ⟨S1024x1, .i32⟩
  | .hbm, ⟨4, _⟩ => ⟨S1024x1, .i32⟩
  | .hbm, ⟨5, _⟩ => ⟨S1024x64x16x16, .f32⟩
  | .local _ .vmem, ⟨0, _⟩ => ⟨S1x64x16x256, .f32⟩
  | .local _ .vmem, ⟨1, _⟩ => ⟨S1x64x16x256, .f32⟩
  | .local _ .vmem, ⟨2, _⟩ => ⟨S1x64x16x16, .f32⟩
  | .local _ .vmem, ⟨3, _⟩ => ⟨S1x64x16x16, .f32⟩
  | .local _ .smem, ⟨0, _⟩ => ⟨S1024, .i32⟩
  | .local _ .smem, ⟨1, _⟩ => ⟨S1024, .i32⟩
  | .local _ .smem, ⟨2, _⟩ => ⟨S1024, .i32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v2 : Ref sig .tc := ⟨.hbm, 3, rfl⟩
abbrev main_v4 : Ref sig .tc := ⟨.hbm, 4, rfl⟩
abbrev main_v6 : Ref sig .tc := ⟨.hbm, 5, rfl⟩
abbrev main_v1 : Ref sig .tc := ⟨.smem, 0, rfl⟩
abbrev main_v3 : Ref sig .tc := ⟨.smem, 1, rfl⟩
abbrev main_v5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1024], ![false]⟩

abbrev pre0 : Pipeline.Prefetch sig := ⟨3, ![main_v1.idx, main_v3.idx, main_v5.idx], fun | 0 => main_v1.names | 1 => main_v3.names | 2 => main_v5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S1024.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S1024) ![v0.toNat] S1.size (k0_off1_inb i)) numel1_S1
  let v2 : Index := Scalar.indexCast arg0
  let v3 : BitVec 32 := pf.at 1 (Rect.unit (s := S1024) ![v2.toNat] S1.size (k0_off1_inb i)) numel1_S1
  let c0_i32 : BitVec 32 := 0#32
  let c0_i32_0 : BitVec 32 := 0#32
  let c0_i32_1 : BitVec 32 := 0#32
  ![v1.toNat, c0_i32.toNat, v3.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S1024x3_S1024x1_0_0 : S1024x3.Slices ![0, 0] S1024x1
  shapeCasts_S1024x1_S1024 : S1024x1.ShapeCasts S1024
  slices_S1024x3_S1024x1_0_1 : S1024x3.Slices ![0, 1] S1024x1
  slices_S1024x3_S1024x1_0_2 : S1024x3.Slices ![0, 2] S1024x1
  numel1_S1 : S1.numel = 1
  inb_S1x64x16x256_S1x64x16x256_0_0_0_0 : ∀ a, (![0, 0, 0, 0] : Fin 4 → Nat) a + S1x64x16x256.size a ≤ S1x64x16x256.size a
  h_S1x64x16x256 : 0 < S1x64x16x256.numel
  shapeCasts_S1x64x16x256_S64x16x256 : S1x64x16x256.ShapeCasts S64x16x256
  shapeCasts_S64x16x256_S64x16x16x16 : S64x16x256.ShapeCasts S64x16x16x16
  iota_S1x1x16x1_d2_w32 : S1x1x16x1.Iotas .tc 32 [2]
  natLt_1_32 : 1 < 32
  broadcasts_S1x1x16x1_S64x16x16x16 : S1x1x16x1.Broadcasts S64x16x16x16
  reduces_S64x16x16x16_S64x16x16 : S64x16x16x16.Reduces [2] S64x16x16
  inb_S1x64x16x16_S1x64x16x16_0_0_0_0 : ∀ a, (![0, 0, 0, 0] : Fin 4 → Nat) a + S1x64x16x16.size a ≤ S1x64x16x16.size a
  h_S1x64x16x16 : 0 < S1x64x16x16.numel
  shapeCasts_S1x64x16x16_S64x16x16 : S1x64x16x16.ShapeCasts S64x16x16
  shapeCasts_S64x16x16_S1x64x16x16 : S64x16x16.ShapeCasts S1x64x16x16
  hrank0 : 0 < grid0.rank
  k0_off1_inb : ∀ i : grid0.Coords, ∀ a, (k0_off1 i) a + S1.size a ≤ S1024.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x16x16.size a ≤ S1024x64x16x16.size a
  hwx0_1 : ∀ i : grid0.Coords, EltTy.bits .f32 = 32 ∨ (Rect.block (s := S1024x64x16x16) S1x64x16x16.size (cc0_transform_1 i) (hinb0_1 i)).WholeWords (EltTy.packing .f32)

variable [Facts₀]

abbrev spec0_0 : Pipeline.WinSpec sig grid0.rank :=
  Pipeline.WinSpec.ofSpec (Memref.whole main_arg0) S1x64x16x256.size reads0_0 false false 2 stage0_0 sem0_0 nbuf0_0 hstage0_0

abbrev spec0_1 : Pipeline.WinSpec sig grid0.rank :=
  Pipeline.WinSpec.ofSpec (Memref.whole main_v6) S1x64x16x16.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x64x16x256.size a ≤ S8x64x256x256.size a), EltTy.bits .f32 = 32 ∨ (Rect.block (s := S8x64x256x256) S1x64x16x256.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S8x64x256x256 : Shape := ⟨4, ![8, 64, 256, 256]⟩
abbrev S1024x3 : Shape := ⟨2, ![1024, 3]⟩
abbrev S1024x1 : Shape := ⟨2, ![1024, 1]⟩
abbrev S1024 : Shape := ⟨1, ![1024]⟩
abbrev S_ : Shape := ⟨0, ![]⟩
abbrev S1024x4 : Shape := ⟨2, ![1024, 4]⟩
abbrev S1024x1x64x16x16 : Shape := ⟨5, ![1024, 1, 64, 16, 16]⟩
abbrev S1024x64x16x16 : Shape := ⟨4, ![1024, 64, 16, 16]⟩

abbrev nBuf : Space → Nat
  | .hbm => 43
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S1024x3, .i32⟩
  | .hbm, ⟨2, _⟩ => ⟨S1024x1, .i32⟩
  | .hbm, ⟨3, _⟩ => ⟨S1024, .i32⟩
  | .hbm, ⟨4, _⟩ => ⟨S1024x1, .i32⟩
  | .hbm, ⟨5, _⟩ => ⟨S1024, .i32⟩
  | .hbm, ⟨6, _⟩ => ⟨S1024x1, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S_, .i32⟩
  | .hbm, ⟨37, _⟩ => ⟨S1024x1, .i32⟩
  | .hbm, ⟨38, _⟩ => ⟨S1024x1, .i32⟩
  | .hbm, ⟨39, _⟩ => ⟨S1024x1, .i32⟩
  | .hbm, ⟨40, _⟩ => ⟨S1024x4, .i32⟩
  | .hbm, ⟨41, _⟩ => ⟨S1024x1x64x16x16, .f32⟩
  | .hbm, ⟨42, _⟩ => ⟨S1024x64x16x16, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_5 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  slices_S1024x3_S1024x1_0_0 : S1024x3.Slices ![0, 0] S1024x1
  shapeCasts_S1024x1_S1024 : S1024x1.ShapeCasts S1024
  slices_S1024x3_S1024x1_0_1 : S1024x3.Slices ![0, 1] S1024x1
  slices_S1024x3_S1024x1_0_2 : S1024x3.Slices ![0, 2] S1024x1
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  concatenates_S1024x1_S1024x1_S1024x1_S1024x1_S1024x4_d1 : Shape.Concatenates [S1024x1, S1024x1, S1024x1, S1024x1] S1024x4 1
  shapeCasts_S1024x1x64x16x16_S1024x64x16x16 : S1024x1x64x16x16.ShapeCasts S1024x64x16x16
  gather_S8x64x256x256_S1024x4_S1024x1x64x16x16_1234_n_n_n_0123_1_1641616_wf : GatherDims.WF S8x64x256x256 S1024x4 S1024x1x64x16x16 [1, 2, 3, 4] [] [] [0, 1, 2, 3] [] 1 ![1, 64, 16, 16]

variable [Facts₀]

def gather_S8x64x256x256_S1024x4_S1024x1x64x16x16_1234_n_n_n_0123_1_1641616 : GatherDims S8x64x256x256 S1024x4 S1024x1x64x16x16 where
  offsetDims := [1, 2, 3, 4]
  collapsedSliceDims := []
  operandBatchingDims := []
  startIndicesBatchingDims := []
  startIndexMap := [0, 1, 2, 3]
  indexVectorDim := 1
  sliceSizes := ![1, 64, 16, 16]
  wf := gather_S8x64x256x256_S1024x4_S1024x1x64x16x16_1234_n_n_n_0123_1_1641616_wf

class Facts : Prop extends Facts₀ where

variable [Facts]
-- ==== Proof.LibIndexWords.lean ====
/-
  Thirty-two-bit index words, read signed and unsigned.

  A block index arrives as a 32-bit word. A range check written with signed comparisons, 0 ≤ w and w < n with
  n below 2³¹, says that the word read UNSIGNED is a natural number below n; such a word is the same number read
  signed, it is not negative, and multiplying it by a small constant does not wrap. These are the facts that let
  an index arithmetic over words (a negative-index wrap `select (w < 0) (w + N) w`, a scaling `w * B`, a clamp of
  the signed value) be read as arithmetic over natural numbers. Nothing here mentions a program.
-/
import Idealize.ShloMosaic.PureOps

namespace Cert.Lib.IndexWords

open Idealize.ShloMosaic

/-- A one-bit word made from a Boolean is set exactly when the Boolean is true. -/
theorem ofBool_eq_one (b : Bool) : BitVec.ofBool b = 1#1 ↔ b = true := by cases b <;> decide

/-- The conjunction of two one-bit words is set exactly when both are. -/
theorem andi_eq_one (a b : BitVec 1) : IntOp.andi a b = 1#1 ↔ a = 1#1 ∧ b = 1#1 := by
  revert a b; decide

/-- A word whose unsigned value is below 2³¹ has that value when read signed. -/
theorem toInt_eq_toNat (w : BitVec 32) (h : w.toNat < 2 ^ 31) : w.toInt = (w.toNat : Int) := by
  rw [BitVec.toInt_eq_toNat_cond]
  have : 2 * w.toNat < 2 ^ 32 := by omega
  rw [if_pos this]

/-- so its signed value, taken as a natural number, is its unsigned value, -/
theorem toInt_toNat (w : BitVec 32) (h : w.toNat < 2 ^ 31) : w.toInt.toNat = w.toNat := by
  rw [toInt_eq_toNat w h]; exact Int.toNat_natCast _

/-- and the signed comparison "w < 0" does not hold of it. -/
theorem not_slt_zero (w : BitVec 32) (h : w.toNat < 2 ^ 31) : ¬ (IntOp.cmpi .slt w 0#32 = 1) := by
  intro h'
  have h'' : BitVec.ofBool (w.slt 0#32) = 1#1 := h'
  rw [ofBool_eq_one] at h''
  simp only [BitVec.slt, decide_eq_true_eq] at h''
  rw [toInt_eq_toNat w h] at h''
  have h0 : (0#32 : BitVec 32).toInt = 0 := by decide
  omega

/-- THE RANGE CHECK: a word accepted by the signed comparisons 0 ≤ w and w < n, with n below 2³¹, is below n read
    unsigned. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  unfold IntOp.cmpi at h0 h1
  rw [ofBool_eq_one] at h0 h1
  simp only [BitVec.slt, BitVec.sle, decide_eq_true_eq] at h0 h1
  have hz : (0#32 : BitVec 32).toInt = 0 := by decide
  have hnn : (BitVec.ofNat 32 n).toInt = (n : Int) := by
    have e : (BitVec.ofNat 32 n).toNat = n := by
      rw [BitVec.toNat_ofNat]; exact Nat.mod_eq_of_lt (by omega)
    rw [toInt_eq_toNat _ (by rw [e]; exact hn), e]
  rw [hz] at h0
  rw [hnn] at h1
  have h32 := w.isLt
  rw [BitVec.toInt_eq_toNat_cond] at h0 h1
  by_cases hc : 2 * w.toNat < 2 ^ 32
  · rw [if_pos hc] at h1; omega
  · rw [if_neg hc] at h0; omega

/-- A word times a constant, when the product of the unsigned values stays below 2³², is that product. -/
theorem muli_toNat (w : BitVec 32) (k : Nat) (h : w.toNat * k < 2 ^ 32) :
    (IntOp.muli w (BitVec.ofNat 32 k)).toNat = w.toNat * k := by
  show (w * BitVec.ofNat 32 k).toNat = _
  rw [BitVec.toNat_mul, BitVec.toNat_ofNat]
  by_cases hw : w.toNat = 0
  · rw [hw]; simp
  · have hk : k < 2 ^ 32 := by
      have : 1 ≤ w.toNat := Nat.one_le_iff_ne_zero.mpr hw
      calc k = 1 * k := (Nat.one_mul k).symm
        _ ≤ w.toNat * k := Nat.mul_le_mul_right k this
        _ < 2 ^ 32 := h
    rw [Nat.mod_eq_of_lt hk, Nat.mod_eq_of_lt h]

end Cert.Lib.IndexWords
-- ==== Proof.BlockGatherSpec.lean ====
/-
  THE SPECIFICATION: a gather of spatial blocks.

  The source x has shape [8, 64, 256, 256] (batch, channel, row, column); the table of active blocks has shape
  [1024, 3], row n holding a batch index b(n), a block-row index y(n) and a block-column index u(n). Entry
  (n, c, r, s) of the result, of shape [1024, 64, 16, 16], is

      x[b(n), c, 16·y(n) + r, 16·u(n) + s]:

  block n of the result is the 16 × 16 spatial tile (y(n), u(n)) of every channel of batch element b(n). The three
  words are read unsigned and capped at the last admissible value (7, 15, 15), so that the function is total; on a
  table whose words are in range the caps do nothing. Both programs are shown to compute this one function.
  No program is imported here.
-/
import Idealize.ShloMosaic.PureOps.Ideal
import Idealize.ShloMosaic.Lib.ValueIdx

namespace Cert.BlockGather

open Idealize.ShloMosaic Idealize.ShloMosaic.ValueIdx

abbrev SX : Shape := ⟨4, ![8, 64, 256, 256]⟩
abbrev ST : Shape := ⟨2, ![1024, 3]⟩
abbrev SO : Shape := ⟨4, ![1024, 64, 16, 16]⟩

/-- Word k of active block n, read unsigned. -/
def word (tab : ST.Idx → BitVec 32) (n : Fin 1024) (k : Fin 3) : Nat := (tab (ix2 n k)).toNat

/-- The batch element, the block row and the block column of active block n. -/
def batchOf (tab : ST.Idx → BitVec 32) (n : Fin 1024) : Fin 8 :=
  ⟨min (word tab n 0) 7, Nat.lt_succ_of_le (Nat.min_le_right _ _)⟩
def blockRow (tab : ST.Idx → BitVec 32) (n : Fin 1024) : Fin 16 :=
  ⟨min (word tab n 1) 15, Nat.lt_succ_of_le (Nat.min_le_right _ _)⟩
def blockCol (tab : ST.Idx → BitVec 32) (n : Fin 1024) : Fin 16 :=
  ⟨min (word tab n 2) 15, Nat.lt_succ_of_le (Nat.min_le_right _ _)⟩

/-- Row r of block row y, column s of block column u, of the 256 × 256 plane. -/
def inPlane (y : Fin 16) (r : Fin 16) : Fin 256 := ⟨16 * y.val + r.val, by have := y.isLt; have := r.isLt; omega⟩

/-- The source index entry (n, c, r, s) of the result reads. -/
def src (tab : ST.Idx → BitVec 32) (n : Fin 1024) (c : Fin 64) (r s : Fin 16) : SX.Idx :=
  ix4 (batchOf tab n) c (inPlane (blockRow tab n) r) (inPlane (blockCol tab n) s)

/-- THE RESULT, as one function of the two arguments. -/
def gathered {α : Type} (x : SX.Idx → α) (tab : ST.Idx → BitVec 32) : SO.Idx → α :=
  fun j => x (src tab (j 0) (j 1) (j 2) (j 3))

theorem gathered_apply {α : Type} (x : SX.Idx → α) (tab : ST.Idx → BitVec 32) (n : Fin 1024) (c : Fin 64) (r s : Fin 16) :
    gathered x tab (ix4 n c r s) = x (src tab n c r s) := rfl

/-- On a table whose words are in range the caps do nothing. -/
theorem batchOf_val (tab : ST.Idx → BitVec 32) (n : Fin 1024) (h : word tab n 0 < 8) : (batchOf tab n).val = word tab n 0 := by
  show min _ 7 = _; omega
theorem blockRow_val (tab : ST.Idx → BitVec 32) (n : Fin 1024) (h : word tab n 1 < 16) : (blockRow tab n).val = word tab n 1 := by
  show min _ 15 = _; omega
theorem blockCol_val (tab : ST.Idx → BitVec 32) (n : Fin 1024) (h : word tab n 2 < 16) : (blockCol tab n).val = word tab n 2 := by
  show min _ 15 = _; omega

end Cert.BlockGather
-- ==== Proof.TableColumns.lean ====
/-
  The table's columns, and what the precondition says of them.

  Both programs and the precondition take column k of the [1024, 3] table of active blocks as a slice [0:1024, k:k+1]
  reshaped to a vector of 1024 words; entry n of that vector is the table's word (n, k). The precondition is a
  vector of 1024 bits, bit n the conjunction of "every entry of x is finite" with the six comparisons
  0 ≤ b(n) < 8, 0 ≤ y(n) < 16, 0 ≤ u(n) < 16 (signed); when it is all ones, the three words of every row,
  read unsigned, are below 8, 16 and 16. Stated at any float instance: the comparisons are of integer words.
-/
import proofs.«168149_j41420664602704_1_alg».proof.Pre_finite_inputs
import proofs.«168149_j41420664602704_1_alg».proof.Proof.LibIndexWords
import proofs.«168149_j41420664602704_1_alg».proof.Proof.BlockGatherSpec
import Idealize.ShloMosaic.Lib.ValueIdx
import Idealize.ShloMosaic.Lib.Pipeline.Value

namespace Cert.BlockGather

open Idealize.ShloMosaic Idealize.ShloMosaic.ValueIdx Cert.Lib.IndexWords

/-- COLUMN k OF THE TABLE at entry n: the slice [0:1024, k:k+1] reshaped to [1024] reads the table at (n, k). -/
theorem column_apply {α : Type} (tab : ST.Idx → α) (k : Nat) (hk : k < 3)
    (hS : ST.Slices ![0, k] ⟨2, ![1024, 1]⟩) (hC : (⟨2, ![1024, 1]⟩ : Shape).ShapeCasts ⟨1, ![1024]⟩) (n : Fin 1024) :
    shapeCast ⟨1, ![1024]⟩ (extractStridedSlice ⟨2, ![1024, 1]⟩ ![0, k] tab hS) hC (ix1 n) = tab (ix2 n (⟨k, hk⟩ : Fin 3)) := by
  refine (shapeCast_apply _ hC (ix1 n) (ix2 n (0 : Fin 1)) ?_).trans (extractStridedSlice_apply _ tab hS _ _ ?_)
  · rw [Shape.rowMajor_val_two, Shape.rowMajor_val_one]
    show n.val * 1 + 0 = n.val
    omega
  · intro a
    match a with
    | ⟨0, _⟩ => show n.val = 0 + n.val; omega
    | ⟨1, _⟩ => show k = k + 0; omega

section Pre
variable [Cert.Pre_finite_inputs.Facts] {F : FTy → Type} [FloatOps F]

/-- THE PRECONDITION DECODED at row n: the three words are in range. -/
theorem words_in_range (x : FVec F Cert.Pre_finite_inputs.S8x64x256x256 .f32) (tab : IVec Cert.Pre_finite_inputs.S1024x3 32)
    (h : Cert.Pre_finite_inputs.fn (F := F) x tab = fun _ => 1#1) (n : Fin 1024) :
    word tab n 0 < 8 ∧ word tab n 1 < 16 ∧ word tab n 2 < 16 := by
  have e := congrFun h (ix1 n)
  unfold Cert.Pre_finite_inputs.fn Cert.Pre_finite_inputs.fn_part1 at e
  simp only [andi, cmpi, broadcastInDim, constantI] at e
  simp only [andi_eq_one] at e
  obtain ⟨⟨⟨⟨⟨⟨-, hb0⟩, hb1⟩, hy0⟩, hy1⟩, hu0⟩, hu1⟩ := e
  rw [column_apply tab 0 (by decide)] at hb0 hb1
  rw [column_apply tab 1 (by decide)] at hy0 hy1
  rw [column_apply tab 2 (by decide)] at hu0 hu1
  exact ⟨toNat_lt_of_signed_range _ 8 (by decide) hb0 hb1, toNat_lt_of_signed_range _ 16 (by decide) hy0 hy1,
    toNat_lt_of_signed_range _ 16 (by decide) hu0 hu1⟩

end Pre

end Cert.BlockGather
-- ==== Proof.KernelTables.lean ====
/-
  The prefetched tables of the block gather, and the side condition of the launch.

  The three tables the pallas_call prefetches are the three columns of the table of active blocks (each a slice of
  the argument reshaped to a vector, written by the host operations before the region), so entry n of table k is the
  argument's word (n, k). Window 0's block at grid point n is block (b(n), 0, y(n), 0) of x in blocks of shape
  [1, 64, 16, 256]; it lies inside x exactly when b(n) < 8 and y(n) < 16 read unsigned, which the precondition gives.
-/
import proofs.«168149_j41420664602704_1_alg».proof.Defs
import proofs.«168149_j41420664602704_1_alg».proof.Proof.KernelFrame
import proofs.«168149_j41420664602704_1_alg».proof.Proof.TableColumns
import Idealize.ShloMosaic.Lib.StableHlo.Run

set_option maxRecDepth 16384

noncomputable section

namespace Cert.Kernel.Tables

open Cert.Kernel Cert.Kernel.Gen Cert.Kernel.GenP Cert.BlockGather
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The table of active blocks as launched, on the program's one device. -/
abbrev tab : ST.Idx → BitVec 32 := m (((0 : Dev nD) : Thread nD τ).loc main_arg1)

/-- Each prefetched table is a column of the launched table. -/
theorem tbl0_eq : (tbl m 0 : S1024.Idx → BitVec 32)
    = shapeCast S1024 (extractStridedSlice S1024x1 ![0, 0] (tab m) Facts₀.slices_S1024x3_S1024x1_0_0) Facts₀.shapeCasts_S1024x1_S1024 := by
  unfold tbl
  show V m 0 main_v1 = _
  dsimp only [V, hostOps0]
  after_results
  rfl
theorem tbl1_eq : (tbl m 1 : S1024.Idx → BitVec 32)
    = shapeCast S1024 (extractStridedSlice S1024x1 ![0, 1] (tab m) Facts₀.slices_S1024x3_S1024x1_0_1) Facts₀.shapeCasts_S1024x1_S1024 := by
  unfold tbl
  show V m 0 main_v3 = _
  dsimp only [V, hostOps0]
  after_results
  rfl
theorem tbl2_eq : (tbl m 2 : S1024.Idx → BitVec 32)
    = shapeCast S1024 (extractStridedSlice S1024x1 ![0, 2] (tab m) Facts₀.slices_S1024x3_S1024x1_0_2) Facts₀.shapeCasts_S1024x1_S1024 := by
  unfold tbl
  show V m 0 main_v5 = _
  dsimp only [V, hostOps0]
  after_results
  rfl

/-- Entry n of table k is the launched table's word (n, k). -/
theorem tbl0_apply (n : Fin 1024) : (tbl m 0 : S1024.Idx → BitVec 32) (ix1 n) = tab m (ix2 n 0) := by
  rw [tbl0_eq]; exact column_apply (tab m) 0 (by decide) _ _ n
theorem tbl1_apply (n : Fin 1024) : (tbl m 1 : S1024.Idx → BitVec 32) (ix1 n) = tab m (ix2 n 1) := by
  rw [tbl1_eq]; exact column_apply (tab m) 1 (by decide) _ _ n
theorem tbl2_apply (n : Fin 1024) : (tbl m 2 : S1024.Idx → BitVec 32) (ix1 n) = tab m (ix2 n 2) := by
  rw [tbl2_eq]; exact column_apply (tab m) 2 (by decide) _ _ n

section Ok
variable [Cert.Pre_finite_inputs.Facts]

/-- What the precondition says of the launched table, row by row (the precondition is stated on every device; the
    tables are the one device's). -/
theorem words (h : ∀ c : Dev nD, Cert.Pre_finite_inputs.fn (F := F) (m ((c.tc : Thread nD τ).loc main_arg0)) (m ((c.tc : Thread nD τ).loc main_arg1)) = (fun _ => 1#1))
    (n : Fin 1024) : word (tab m) n 0 < 8 ∧ word (tab m) n 1 < 16 ∧ word (tab m) n 2 < 16 :=
  words_in_range _ _ (h 0) n

/-- THE LAUNCH'S SIDE CONDITION from the precondition: at every grid point window 0's block (b, 0, y, 0), in blocks of
    [1, 64, 16, 256], lies inside x : [8, 64, 256, 256], because b < 8 and y < 16. -/
theorem ok_of_pre (h : ∀ c : Dev nD, Cert.Pre_finite_inputs.fn (F := F) (m ((c.tc : Thread nD τ).loc main_arg0)) (m ((c.tc : Thread nD τ).loc main_arg1)) = (fun _ => 1#1)) :
    Ok m := by
  intro i
  have hb : ∀ x : S1024.Idx, ((tbl m 0 : S1024.Idx → BitVec 32) x).toNat < 8 := fun x => by
    obtain ⟨n, rfl⟩ : ∃ n : Fin 1024, x = ix1 n := ⟨x 0, eq_ix1 x⟩
    exact lt_of_eq_of_lt (congrArg BitVec.toNat (tbl0_apply m n)) (words m h n).1
  have hy : ∀ x : S1024.Idx, ((tbl m 1 : S1024.Idx → BitVec 32) x).toNat < 16 := fun x => by
    obtain ⟨n, rfl⟩ : ∃ n : Fin 1024, x = ix1 n := ⟨x 0, eq_ix1 x⟩
    exact lt_of_eq_of_lt (congrArg BitVec.toNat (tbl1_apply m n)) (words m h n).2.1
  obtain ⟨w1, w3, h1, h3, e⟩ : ∃ w1 w3 : BitVec 32, w1.toNat < 8 ∧ w3.toNat < 16
      ∧ cc0_transform_0 Facts₀.k0_off1_inb Facts₀.numel1_S1 (tbl m) i = ![w1.toNat, 0, w3.toNat, 0] :=
    ⟨_, _, hb _, hy _, rfl⟩
  refine ⟨fun a => ?_, Or.inl rfl⟩
  rw [e]
  fin_cases a <;> simp [S1x64x16x256, S8x64x256x256] <;> omega

end Ok

end Cert.Kernel.Tables

end
-- ==== Proof.KernelIdealTables.lean ====
/-
  The prefetched tables of the block gather, and the side condition of the launch.

  The three tables the pallas_call prefetches are the three columns of the table of active blocks (each a slice of
  the argument reshaped to a vector, written by the host operations before the region), so entry n of table k is the
  argument's word (n, k). Window 0's block at grid point n is block (b(n), 0, y(n), 0) of x in blocks of shape
  [1, 64, 16, 256]; it lies inside x exactly when b(n) < 8 and y(n) < 16 read unsigned, which the precondition gives.
-/
import proofs.«168149_j41420664602704_1_alg».proof.Defs
import proofs.«168149_j41420664602704_1_alg».proof.Proof.KernelIdealFrame
import proofs.«168149_j41420664602704_1_alg».proof.Proof.TableColumns
import Idealize.ShloMosaic.Lib.StableHlo.Run

set_option maxRecDepth 16384

noncomputable section

namespace Cert.KernelIdeal.Tables

open Cert.KernelIdeal Cert.KernelIdeal.Gen Cert.KernelIdeal.GenP Cert.BlockGather
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The table of active blocks as launched, on the program's one device. -/
abbrev tab : ST.Idx → BitVec 32 := m (((0 : Dev nD) : Thread nD τ).loc main_arg1)

/-- Each prefetched table is a column of the launched table. -/
theorem tbl0_eq : (tbl m 0 : S1024.Idx → BitVec 32)
    = shapeCast S1024 (extractStridedSlice S1024x1 ![0, 0] (tab m) Facts₀.slices_S1024x3_S1024x1_0_0) Facts₀.shapeCasts_S1024x1_S1024 := by
  unfold tbl
  show V m 0 main_v1 = _
  dsimp only [V, hostOps0]
  after_results
  rfl
theorem tbl1_eq : (tbl m 1 : S1024.Idx → BitVec 32)
    = shapeCast S1024 (extractStridedSlice S1024x1 ![0, 1] (tab m) Facts₀.slices_S1024x3_S1024x1_0_1) Facts₀.shapeCasts_S1024x1_S1024 := by
  unfold tbl
  show V m 0 main_v3 = _
  dsimp only [V, hostOps0]
  after_results
  rfl
theorem tbl2_eq : (tbl m 2 : S1024.Idx → BitVec 32)
    = shapeCast S1024 (extractStridedSlice S1024x1 ![0, 2] (tab m) Facts₀.slices_S1024x3_S1024x1_0_2) Facts₀.shapeCasts_S1024x1_S1024 := by
  unfold tbl
  show V m 0 main_v5 = _
  dsimp only [V, hostOps0]
  after_results
  rfl

/-- Entry n of table k is the launched table's word (n, k). -/
theorem tbl0_apply (n : Fin 1024) : (tbl m 0 : S1024.Idx → BitVec 32) (ix1 n) = tab m (ix2 n 0) := by
  rw [tbl0_eq]; exact column_apply (tab m) 0 (by decide) _ _ n
theorem tbl1_apply (n : Fin 1024) : (tbl m 1 : S1024.Idx → BitVec 32) (ix1 n) = tab m (ix2 n 1) := by
  rw [tbl1_eq]; exact column_apply (tab m) 1 (by decide) _ _ n
theorem tbl2_apply (n : Fin 1024) : (tbl m 2 : S1024.Idx → BitVec 32) (ix1 n) = tab m (ix2 n 2) := by
  rw [tbl2_eq]; exact column_apply (tab m) 2 (by decide) _ _ n

section Ok
variable [Cert.Pre_finite_inputs.Facts]

/-- What the precondition says of the launched table, row by row (the precondition is stated on every device; the
    tables are the one device's). -/
theorem words (h : ∀ c : Dev nD, Cert.Pre_finite_inputs.fn (F := F) (m ((c.tc : Thread nD τ).loc main_arg0)) (m ((c.tc : Thread nD τ).loc main_arg1)) = (fun _ => 1#1))
    (n : Fin 1024) : word (tab m) n 0 < 8 ∧ word (tab m) n 1 < 16 ∧ word (tab m) n 2 < 16 :=
  words_in_range _ _ (h 0) n

/-- THE LAUNCH'S SIDE CONDITION from the precondition: at every grid point window 0's block (b, 0, y, 0), in blocks of
    [1, 64, 16, 256], lies inside x : [8, 64, 256, 256], because b < 8 and y < 16. -/
theorem ok_of_pre (h : ∀ c : Dev nD, Cert.Pre_finite_inputs.fn (F := F) (m ((c.tc : Thread nD τ).loc main_arg0)) (m ((c.tc : Thread nD τ).loc main_arg1)) = (fun _ => 1#1)) :
    Ok m := by
  intro i
  have hb : ∀ x : S1024.Idx, ((tbl m 0 : S1024.Idx → BitVec 32) x).toNat < 8 := fun x => by
    obtain ⟨n, rfl⟩ : ∃ n : Fin 1024, x = ix1 n := ⟨x 0, eq_ix1 x⟩
    exact lt_of_eq_of_lt (congrArg BitVec.toNat (tbl0_apply m n)) (words m h n).1
  have hy : ∀ x : S1024.Idx, ((tbl m 1 : S1024.Idx → BitVec 32) x).toNat < 16 := fun x => by
    obtain ⟨n, rfl⟩ : ∃ n : Fin 1024, x = ix1 n := ⟨x 0, eq_ix1 x⟩
    exact lt_of_eq_of_lt (congrArg BitVec.toNat (tbl1_apply m n)) (words m h n).2.1
  obtain ⟨w1, w3, h1, h3, e⟩ : ∃ w1 w3 : BitVec 32, w1.toNat < 8 ∧ w3.toNat < 16
      ∧ cc0_transform_0 Facts₀.k0_off1_inb Facts₀.numel1_S1 (tbl m) i = ![w1.toNat, 0, w3.toNat, 0] :=
    ⟨_, _, hb _, hy _, rfl⟩
  refine ⟨fun a => ?_, Or.inl rfl⟩
  rw [e]
  fin_cases a <;> simp [S1x64x16x256, S8x64x256x256] <;> omega

end Ok

end Cert.KernelIdeal.Tables

end
-- ==== Proof.SelectColumns.lean ====
/-
  The kernel body's arithmetic: one block of sixteen columns selected out of 256 by a 0/1 mask and a sum.

  The body is handed the block v of x of shape [1, 64, 16, 256] (one batch element, every channel, sixteen rows, the
  full width) and the word u of the block column. It views the 256 columns as sixteen chunks of sixteen,
  v'(c, r, k, s) = v(0, c, r, 16·k + s), multiplies by the mask that is 1 on chunk k = u and 0 elsewhere, and sums
  over k. On the extended reals a · 1 = a and a · 0 = 0 for EVERY a (also an infinite one), and a sum whose terms but
  one are 0 is that term, so entry (0, c, r, s) of what the body stores is v(0, c, r, 16·u + s), provided u < 16:
  no finiteness is needed.
-/
import proofs.«168149_j41420664602704_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.SelectColumns

open Cert.KernelIdeal Cert.KernelIdeal.Gen
open Idealize.ShloMosaic Idealize.ShloMosaic.ValueIdx

/-- A 32-bit word made from a number below 16 is the word u exactly when the number is u's unsigned value. -/
theorem ofNat_eq_iff (k : Fin 16) (u : BitVec 32) : BitVec.ofNat 32 k.val = u ↔ k.val = u.toNat := by
  constructor
  · intro h
    rw [← h, BitVec.toNat_ofNat]
    have := k.isLt
    exact (Nat.mod_eq_of_lt (by omega)).symm
  · intro h
    apply BitVec.eq_of_toNat_eq
    rw [BitVec.toNat_ofNat, h]
    exact Nat.mod_eq_of_lt u.isLt

/-- THE MASK at chunk k: 1 when k is the block column u, else 0. -/
theorem mask_apply (u : BitVec 32) (k : Fin 16) :
    (sitofp (F := Ideal) .f32 (extui 32 (cmpi .eq (iota .tc S1x1x16x1 32 [2] Facts₀.iota_S1x1x16x1_d2_w32) (broadcast S1x1x16x1 u)) Facts₀.natLt_1_32)
      : FVec Ideal S1x1x16x1 .f32) (ix4 (0 : Fin 1) (0 : Fin 1) k (0 : Fin 1)) = if k.val = u.toNat then 1 else 0 := by
  show ((((IntOp.cmpi .eq (iota .tc S1x1x16x1 32 [2] Facts₀.iota_S1x1x16x1_d2_w32 (ix4 (0 : Fin 1) (0 : Fin 1) k (0 : Fin 1))) u).setWidth 32).toInt : ℝ) : EReal) = _
  rw [iota_single_apply]
  show ((((BitVec.ofBool (BitVec.ofNat 32 k.val == u)).setWidth 32).toInt : ℝ) : EReal) = _
  by_cases h : k.val = u.toNat
  · rw [if_pos h, (ofNat_eq_iff k u).mpr h]
    simp
  · rw [if_neg h]
    have hne : BitVec.ofNat 32 k.val ≠ u := fun e => h ((ofNat_eq_iff k u).mp e)
    have : (BitVec.ofNat 32 k.val == u) = false := by simpa using hne
    rw [this]
    simp

/-- A sum over sixteen chunks of terms masked to chunk n is chunk n's term: a · 1 = a and a · 0 = 0 on the extended
    reals, whatever a. -/
theorem sum_masked (f : Fin 16 → EReal) (n : Fin 16) : (∑ k : Fin 16, f k * (if k.val = n.val then 1 else 0)) = f n := by
  rw [Finset.sum_eq_single n]
  · rw [if_pos rfl, mul_one]
  · intro k _ hk
    rw [if_neg (fun e => hk (Fin.ext e)), mul_zero]
  · intro h; exact absurd (Finset.mem_univ _) h

/-- A column of the plane from its chunk and its place in the chunk. -/
def col (k : Fin 16) (s : Fin 16) : Fin 256 := ⟨16 * k.val + s.val, by have := k.isLt; have := s.isLt; omega⟩

/-- THE BLOCK VIEWED IN CHUNKS at (c, r, k, s) is the block at (0, c, r, 16·k + s). -/
theorem chunks_apply (v : Vec Ideal S1x64x16x256 .f32) (c : Fin 64) (r k s : Fin 16) :
    shapeCast S64x16x16x16 (shapeCast S64x16x256 v Facts₀.shapeCasts_S1x64x16x256_S64x16x256) Facts₀.shapeCasts_S64x16x256_S64x16x16x16 (ix4 c r k s)
      = v (ix4 (0 : Fin 1) c r (col k s)) := by
  refine (shapeCast_apply _ _ (ix4 c r k s) (ix3 c r (col k s)) ?_).trans (shapeCast_apply _ _ _ (ix4 (0 : Fin 1) c r (col k s)) ?_)
  · rw [Shape.rowMajor_val_three, Shape.rowMajor_val_four]
    show (c.val * 16 + r.val) * 256 + (16 * k.val + s.val) = ((c.val * 16 + r.val) * 16 + k.val) * 16 + s.val
    omega
  · rw [Shape.rowMajor_val_four, Shape.rowMajor_val_three]
    show ((0 * 64 + c.val) * 16 + r.val) * 256 + (16 * k.val + s.val) = (c.val * 16 + r.val) * 256 + (16 * k.val + s.val)
    omega

/-- THE STORED VALUE at (0, c, r, s): the block at column 16·u + s. -/
theorem pay_apply (u : BitVec 32) (hu : u.toNat < 16) (v : Vec Ideal S1x64x16x256 .f32) (c : Fin 64) (r s : Fin 16) :
    k0_pay1 (F := Ideal) u v (ix4 (0 : Fin 1) c r s) = v (ix4 (0 : Fin 1) c r (col ⟨u.toNat, hu⟩ s)) := by
  unfold k0_pay1
  refine (shapeCast_apply _ _ (ix4 (0 : Fin 1) c r s) (ix3 c r s) ?_).trans ?_
  · rw [Shape.rowMajor_val_three, Shape.rowMajor_val_four]
    show (c.val * 16 + r.val) * 16 + s.val = ((0 * 64 + c.val) * 16 + r.val) * 16 + s.val
    omega
  refine (Ideal.multiReduction_add_single _ _ Facts₀.reduces_S64x16x16x16_S64x16x16 _ _ (ix3 c r s)).trans ?_
  have hl : ∀ k : Fin 16, Facts₀.reduces_S64x16x16x16_S64x16x16.lift (ix3 c r s) k = ix4 c r k s := fun k =>
    funext fun a => Fin.ext (by match a with | ⟨0, _⟩ => rfl | ⟨1, _⟩ => rfl | ⟨2, _⟩ => rfl | ⟨3, _⟩ => rfl)
  have term : ∀ k : Fin 16, (mulf (F := Ideal)
        (shapeCast S64x16x16x16 (shapeCast S64x16x256 v Facts₀.shapeCasts_S1x64x16x256_S64x16x256) Facts₀.shapeCasts_S64x16x256_S64x16x16x16)
        (broadcastTo S64x16x16x16 (sitofp (F := Ideal) .f32 (extui 32 (cmpi .eq (iota .tc S1x1x16x1 32 [2] Facts₀.iota_S1x1x16x1_d2_w32) (broadcast S1x1x16x1 u)) Facts₀.natLt_1_32)) Facts₀.broadcasts_S1x1x16x1_S64x16x16x16))
        (Facts₀.reduces_S64x16x16x16_S64x16x16.lift (ix3 c r s) k)
      = v (ix4 (0 : Fin 1) c r (col k s)) * (if k.val = u.toNat then 1 else 0) := fun k => by
    rw [hl k, mulf_apply, chunks_apply]
    refine congrArg (v (ix4 (0 : Fin 1) c r (col k s)) * ·) ?_
    refine (broadcastTo_apply _ Facts₀.broadcasts_S1x1x16x1_S64x16x16x16 (ix4 c r k s) (ix4 (0 : Fin 1) (0 : Fin 1) k (0 : Fin 1)) ?_).trans (mask_apply u k)
    intro a
    match a with
    | ⟨0, _⟩ => rfl
    | ⟨1, _⟩ => rfl
    | ⟨2, _⟩ => rfl
    | ⟨3, _⟩ => rfl
  refine (Finset.sum_congr rfl fun k _ => term k).trans ?_
  exact sum_masked (fun k => v (ix4 (0 : Fin 1) c r (col k s))) ⟨u.toNat, hu⟩

end Cert.KernelIdeal.SelectColumns

end
-- ==== Proof.KernelIdealValue.lean ====
/-
  The value of the block-gather kernel.

  At grid point n the launch stages block (b(n), 0, y(n), 0) of x in blocks of [1, 64, 16, 256] — batch element b(n),
  every channel, rows 16·y(n) … 16·y(n) + 15, the full width — and the body stores, into block (n, 0, 0, 0) of the
  result in blocks of [1, 64, 16, 16], the sixteen columns 16·u(n) … 16·u(n) + 15 of it (SelectColumns), u(n) the word
  it reads at entry n of the third table. The tables are the columns of the launched table (Tables). So what point n
  writes back is block n of the block gather of x (BlockGatherSpec); the 1024 blocks fill the result, which therefore
  ends as the block gather.
-/
import proofs.«168149_j41420664602704_1_alg».proof.Defs
import proofs.«168149_j41420664602704_1_alg».proof.Proof.KernelIdealFrame
import proofs.«168149_j41420664602704_1_alg».proof.Proof.KernelIdealTables
import proofs.«168149_j41420664602704_1_alg».proof.Proof.SelectColumns
import proofs.«168149_j41420664602704_1_alg».proof.Proof.BlockGatherSpec
import Idealize.ShloMosaic.Lib.Pipeline.Value

set_option maxRecDepth 16384

noncomputable section

namespace Cert.KernelIdeal.BlockValue

open Cert.KernelIdeal Cert.KernelIdeal.Gen Cert.KernelIdeal.GenP Cert.KernelIdeal.Tables Cert.KernelIdeal.SelectColumns Cert.BlockGather
open Idealize.ShloMosaic Idealize.ShloMosaic.TcCoe Idealize.ShloMosaic.ValueIdx Idealize.SL.Sem Idealize.ShloMosaic.Tactic
open Idealize.ShloMosaic.Pipeline (Dat)

variable {F : FTy → Type} [FloatOps F]

theorem offs4 : (![0, 0, 0, 0] : Fin 4 → Nat) = fun _ => 0 := funext fun a => by fin_cases a <;> rfl

/-! ## The grid coordinate as a table entry -/

/-- The 32-bit word of a grid coordinate, cast to an index, is the coordinate. -/
theorem coord_word (i : grid0.Coords) : (Scalar.indexCast (BitVec.ofNat 32 (i 0).val)).toNat = (i 0).val := by
  show (BitVec.ofNat 32 (i 0).val).toNat = _
  rw [BitVec.toNat_ofNat]
  have h : (i 0).val < 1024 := (i 0).isLt
  exact Nat.mod_eq_of_lt (by omega)

/-- The one-word rectangle at the grid coordinate reads entry (i 0) of a table. -/
theorem entry_emb (i : grid0.Coords) (h1 : 0 < S1.numel) :
    (Rect.unit (s := S1024) (k0_off1 i) S1.size (Facts₀.k0_off1_inb i)).emb (Shape.Idx.first h1) = ix1 (i 0) := by
  funext a
  apply Fin.ext
  match a with
  | ⟨0, _⟩ =>
    show (Scalar.indexCast (BitVec.ofNat 32 (i 0).val)).toNat + 1 * (Shape.Idx.first h1 (0 : Fin 1)).val = (i 0).val
    have h0 : (Shape.Idx.first h1 (0 : Fin 1)).val = 0 := by
      have := (Shape.Idx.first h1 (0 : Fin 1)).isLt
      have e : S1.size (0 : Fin 1) = 1 := by decide
      omega
    rw [h0, coord_word]; omega

/-! ## What the body leaves -/

/-- THE BODY'S OUTPUT BLOCK, on any staging memrefs, any input block x0 and any table contents: the selection
    arithmetic of the word at entry (i 0) of the third table and of x0. -/
theorem out_eq (c : Dev nD) (i : grid0.Coords) (arg4 : Memref sig .tc .vmem S1x64x16x256 .f32) (harg4 : arg4.IsWhole) (arg5 : Memref sig .tc .vmem S1x64x16x16 .f32) (harg5 : arg5.IsWhole)
    (x0 : Vec F S1x64x16x256 .f32) (xt0 : TbBuf0 (F := F) c tbM0_0) (xt1 : TbBuf0 (F := F) c tbM0_1) (xt2 : TbBuf0 (F := F) c tbM0_2) :
    out0_A_1 c i arg4 harg4 arg5 harg5 x0 xt0 xt1 xt2 = k0_pay1 ((xt2 : S1024.Idx → BitVec 32) (ix1 (i 0))) x0 := by
  unfold out0_A_1
  rw [View.read_writes_eq_canon _ _ _ (cover0_A_1 c i arg4 harg4 arg5 harg5 x0 xt0 xt1 xt2)]
  unfold kernelRun0_A
  dsimp only
  sl_unfold_words
  rw [View.canon_unit_zero offs4]
  simp only [View.readAt_eq_ld, harg4.read_unread, View.ld_unit_zero (S := S1x64x16x256) offs4]
  refine congrArg (fun w => k0_pay1 w x0) ?_
  exact congrArg (xt2 : S1024.Idx → BitVec 32) (entry_emb i _)

/-! ## The windows' index maps, at any admissible contents of the tables -/

/-- Window 0's block index at grid point i: (b, 0, y, 0), b and y the words at entry (i 0) of the first two tables. -/
theorem transform0_eq (pf : pre0.Contents (Elt F)) (i : grid0.Coords) :
    cc0_transform_0 Facts₀.k0_off1_inb Facts₀.numel1_S1 pf i
      = ![((pf 0 : S1024.Idx → BitVec 32) (ix1 (i 0))).toNat, 0, ((pf 1 : S1024.Idx → BitVec 32) (ix1 (i 0))).toNat, 0] := by
  have e : ∀ q : S1024.Idx, q = ix1 (i 0) →
      ![((pf 0 : S1024.Idx → BitVec 32) q).toNat, 0, ((pf 1 : S1024.Idx → BitVec 32) q).toNat, 0]
        = ![((pf 0 : S1024.Idx → BitVec 32) (ix1 (i 0))).toNat, 0, ((pf 1 : S1024.Idx → BitVec 32) (ix1 (i 0))).toNat, 0] :=
    fun q hq => by subst hq; rfl
  exact e _ (entry_emb i (Facts₀.numel1_S1.symm ▸ Nat.one_pos))

/-- Window 1's block index at grid point i: (i 0, 0, 0, 0). -/
theorem transform1_eq (i : grid0.Coords) : cc0_transform_1 i = ![(i 0).val, 0, 0, 0] := by
  show ![(BitVec.ofNat 32 (i 0).val).toNat, 0, 0, 0] = _
  rw [show (BitVec.ofNat 32 (i 0).val).toNat = (i 0).val from coord_word i]

/-- A grid point's one coordinate is its number. -/
theorem coords_val (t : Fin grid0.N) : (grid0.coords t 0).val = t.val := by
  have ht : t.val < 1024 := lt_of_lt_of_eq t.isLt N_0
  show t.val / grid0.stride 0 % 1024 = t.val
  have hs : grid0.stride 0 = 1 := by decide
  rw [hs]; omega

/-! ## The input block the pipeline stages -/

section AtIdeal
variable (m : (ℓ : Loc nD τ sig) → Buf (Elt Ideal) ℓ) (ρ : Dev nD → PrngReg)

/-- The source array on device c. -/
abbrev xs (c : Dev nD) : SX.Idx → EReal := m ((c : Thread nD τ).loc main_arg0)

/-- Window 0's block at a grid point, at ANY admissible contents of the tables: coordinate k of entry y of the block
    is the block index times the block's extent plus y's coordinate. -/
theorem blk0_emb_val (a : (pcfg0 (F := Ideal)).Adm) (t : Fin (cfg0 a).N) (y : S1x64x16x256.Idx) (k : Fin 4) :
    ((((cfg0 a).win 0).blk t).view.emb y k).val
      = cc0_transform_0 Facts₀.k0_off1_inb Facts₀.numel1_S1 a.1 (grid0.coords t) k * S1x64x16x256.size k + 1 * (y k).val := rfl

/-- Entry y of window 0's block is the array index (b, y 1, 16·y' + y 2, y 3), b and y' the first two tables' words at
    the grid point's entry — again at any admissible contents. The caller names the index by its coordinates. -/
theorem blk0_emb (a : (pcfg0 (F := Ideal)).Adm) (t : Fin (cfg0 a).N) (y : S1x64x16x256.Idx) (i : SX.Idx)
    (h0 : (i 0).val = ((a.1 0 : S1024.Idx → BitVec 32) (ix1 (grid0.coords t 0))).toNat)
    (h1 : (i 1).val = (y 1).val)
    (h2 : (i 2).val = ((a.1 1 : S1024.Idx → BitVec 32) (ix1 (grid0.coords t 0))).toNat * 16 + (y 2).val)
    (h3 : (i 3).val = (y 3).val) :
    (((cfg0 a).win 0).blk t).view.emb y = i := by
  funext k
  apply Fin.ext
  have e := blk0_emb_val a t y k
  rw [transform0_eq] at e
  have y0 : (y 0).val = 0 := by
    have := (y 0).isLt
    have e1 : S1x64x16x256.size 0 = 1 := (by decide)
    omega
  match k with
  | ⟨0, _⟩ =>
    refine e.trans ?_
    show ((a.1 0 : S1024.Idx → BitVec 32) (ix1 (grid0.coords t 0))).toNat * 1 + 1 * (y 0).val = (i 0).val
    rw [h0, y0]; omega
  | ⟨1, _⟩ =>
    refine e.trans ?_
    show 0 * 64 + 1 * (y 1).val = (i 1).val
    rw [h1]; omega
  | ⟨2, _⟩ =>
    refine e.trans ?_
    show ((a.1 1 : S1024.Idx → BitVec 32) (ix1 (grid0.coords t 0))).toNat * 16 + 1 * (y 2).val = (i 2).val
    rw [h2]; omega
  | ⟨3, _⟩ =>
    refine e.trans ?_
    show 0 * 256 + 1 * (y 3).val = (i 3).val
    rw [h3]; omega

/-- THE STAGED BLOCK at entry y is x at that index, the tables the launch's. -/
theorem iblk_apply (hO : Ok m) (c : Dev nD) (t : Fin (cfgM m hO).N) (y : S1x64x16x256.Idx) (i : SX.Idx)
    (h0 : (i 0).val = ((tbl m 0 : S1024.Idx → BitVec 32) (ix1 (grid0.coords t 0))).toNat)
    (h1 : (i 1).val = (y 1).val)
    (h2 : (i 2).val = ((tbl m 1 : S1024.Idx → BitVec 32) (ix1 (grid0.coords t 0))).toNat * 16 + (y 2).val)
    (h3 : (i 3).val = (y 3).val) :
    iblk m hO c 0 t y = xs m c i := by
  unfold iblk
  show V m c main_arg0 ((((cfgM m hO).win 0).blk t).view.emb y) = _
  rw [V_main_arg0]
  exact congrArg (xs m c) (blk0_emb (adm m hO) t y i h0 h1 h2 h3)

/-! ## What a grid point writes back -/

/-- The words of the launched table are in range (what the precondition gives: Tables). -/
abbrev InRange : Prop := ∀ n : Fin 1024, word (tab m) n 0 < 8 ∧ word (tab m) n 1 < 16 ∧ word (tab m) n 2 < 16

/-- THE BODY'S OUTPUT at grid point t, entry (0, c', r, s): x at the block gather's source index for row t. -/
theorem outs_apply (hO : Ok m) (hw : InRange m) (c : Dev nD) (t : Fin (cfgM m hO).N) (z : Fin 1) (c' : Fin 64) (r s : Fin 16) :
    outsAt0 m hO c t (ix4 z c' r s) = xs m c (src (tab m) (grid0.coords t 0) c' r s) := by
  obtain ⟨hb, hy, hu⟩ := hw (grid0.coords t 0)
  obtain rfl : z = 0 := Subsingleton.elim _ _
  have e0 : ((tbl m 0 : S1024.Idx → BitVec 32) (ix1 (grid0.coords t 0))).toNat = word (tab m) (grid0.coords t 0) 0 :=
    congrArg BitVec.toNat (tbl0_apply m (grid0.coords t 0))
  have e1 : ((tbl m 1 : S1024.Idx → BitVec 32) (ix1 (grid0.coords t 0))).toNat = word (tab m) (grid0.coords t 0) 1 :=
    congrArg BitVec.toNat (tbl1_apply m (grid0.coords t 0))
  have e2 : ((tbl m 2 : S1024.Idx → BitVec 32) (ix1 (grid0.coords t 0))).toNat = word (tab m) (grid0.coords t 0) 2 :=
    congrArg BitVec.toNat (tbl2_apply m (grid0.coords t 0))
  have hu' : ((tbl m 2 : S1024.Idx → BitVec 32) (ix1 (grid0.coords t 0))).toNat < 16 := lt_of_eq_of_lt e2 hu
  unfold outsAt0
  refine (congrFun (out_eq c (grid0.coords t) (ms0_0 m hO t) (hs0_0 m hO t) (ms0_1 m hO t) (hs0_1 m hO t) (iblk m hO c 0 t) (tbl m 0) (tbl m 1) (tbl m 2))
    (ix4 (0 : Fin 1) c' r s)).trans ?_
  refine (pay_apply _ hu' (iblk m hO c 0 t) c' r s).trans ?_
  refine iblk_apply m hO c t _ (src (tab m) (grid0.coords t 0) c' r s) ?_ rfl ?_ ?_
  · exact (batchOf_val (tab m) _ hb).trans e0.symm
  · show 16 * (blockRow (tab m) (grid0.coords t 0)).val + r.val
      = ((tbl m 1 : S1024.Idx → BitVec 32) (ix1 (grid0.coords t 0))).toNat * 16 + r.val
    rw [e1, blockRow_val (tab m) _ hy]; omega
  · show 16 * (blockCol (tab m) (grid0.coords t 0)).val + s.val
      = 16 * ((tbl m 2 : S1024.Idx → BitVec 32) (ix1 (grid0.coords t 0))).toNat + s.val
    rw [e2, blockCol_val (tab m) _ hu]

/-- Entry (0, c', r, s) of window 1's block at grid point t is the array index (t, c', r, s) — at any admissible
    contents of the tables (its index map reads none). -/
theorem blk1_emb (a : (pcfg0 (F := Ideal)).Adm) (t : Fin (cfg0 a).N) (z : Fin 1) (c' : Fin 64) (r s : Fin 16) :
    (((cfg0 a).win 1).blk t).view.emb (ix4 z c' r s) = ix4 (grid0.coords t 0) c' r s := by
  funext k
  apply Fin.ext
  have e : ((((cfg0 a).win 1).blk t).view.emb (ix4 z c' r s) k).val
      = cc0_transform_1 (grid0.coords t) k * S1x64x16x16.size k + 1 * ((ix4 z c' r s : S1x64x16x16.Idx) k).val := rfl
  rw [transform1_eq] at e
  have z0 : z.val = 0 := by have := z.isLt; omega
  match k with
  | ⟨0, _⟩ =>
    refine e.trans ?_
    show (grid0.coords t 0).val * 1 + 1 * z.val = (grid0.coords t 0).val
    rw [z0]; omega
  | ⟨1, _⟩ =>
    refine e.trans ?_
    show 0 * 64 + 1 * c'.val = c'.val
    omega
  | ⟨2, _⟩ =>
    refine e.trans ?_
    show 0 * 16 + 1 * r.val = r.val
    omega
  | ⟨3, _⟩ =>
    refine e.trans ?_
    show 0 * 16 + 1 * s.val = s.val
    omega

/-- WHAT POINT t WRITES BACK is block t of the block gather of x. -/
theorem flushed_eq (hO : Ok m) (hw : InRange m) (c : Dev nD) (t : Fin (cfgM m hO).N) :
    (dats m hO 0 c).flushed 1 t = (((cfgM m hO).win 1).blk t).view.read (Elt Ideal) (gathered (xs m c) (tab m)) := by
  show ((cfgM m hO).win 1).cut (grid0.coords t) ((dats m hO 0 c).after 1 t) = _
  rw [after0_1]
  refine funext fun (y : S1x64x16x16.Idx) => ?_
  obtain ⟨z, c', r, s, rfl⟩ : ∃ (z : Fin 1) (c' : Fin 64) (r s : Fin 16), y = ix4 z c' r s := ⟨y 0, y 1, y 2, y 3, eq_ix4 y⟩
  show outsAt0 m hO c t (ix4 z c' r s) = gathered (xs m c) (tab m) ((((cfgM m hO).win 1).blk t).view.emb (ix4 z c' r s))
  refine (outs_apply m hO hw c t z c' r s).trans ?_
  exact (gathered_apply (xs m c) (tab m) (grid0.coords t 0) c' r s).symm.trans
    (congrArg (gathered (xs m c) (tab m)) (blk1_emb (adm m hO) t z c' r s)).symm

/-! ## The blocks fill the result -/

/-- An index of the result is in point t's block iff each coordinate is in the block's range on its axis. -/
theorem mem_blk1 (a : (pcfg0 (F := Ideal)).Adm) (t : Fin (cfg0 a).N) (i : S1024x64x16x16.Idx) :
    i ∈ (((cfg0 a).win 1).blk t).view.set ↔ ∀ k : Fin 4, cc0_transform_1 (grid0.coords t) k * S1x64x16x16.size k ≤ (i k).val
      ∧ (i k).val < cc0_transform_1 (grid0.coords t) k * S1x64x16x16.size k + S1x64x16x16.size k := by
  show i ∈ ((View.whole main_v6).slice (((cfg0 a).win 1).rect t)).set ↔ _
  refine (Eq.to_iff (congrArg (fun S => i ∈ S) (View.set_slice_whole main_v6 _))).trans ?_
  exact Rect.mem_set_unit

/-- Every index (n, c', r, s) of the result lies in the block of grid point n, which is written back. -/
theorem cover (hO : Ok m) (j : S1024x64x16x16.Idx) :
    ∃ t : Fin (cfgM m hO).N, ((cfgM m hO).win 1).flush t = true ∧ j ∈ (((cfgM m hO).win 1).blk t).view.set := by
  have hj : (j 0).val < grid0.N := lt_of_lt_of_eq (j 0).isLt N_0.symm
  refine ⟨⟨(j 0).val, hj⟩, flush0_1 (adm m hO) _, (mem_blk1 (adm m hO) _ j).mpr ?_⟩
  intro k
  rw [transform1_eq, coords_val]
  match k with
  | ⟨0, _⟩ => show (j 0).val * 1 ≤ (j 0).val ∧ (j 0).val < (j 0).val * 1 + 1; omega
  | ⟨1, _⟩ => show 0 * 64 ≤ (j 1).val ∧ (j 1).val < 0 * 64 + 64; have h1 : (j 1).val < 64 := (j 1).isLt; omega
  | ⟨2, _⟩ => show 0 * 16 ≤ (j 2).val ∧ (j 2).val < 0 * 16 + 16; have h2 : (j 2).val < 16 := (j 2).isLt; omega
  | ⟨3, _⟩ => show 0 * 16 ≤ (j 3).val ∧ (j 3).val < 0 * 16 + 16; have h3 : (j 3).val < 16 := (j 3).isLt; omega

/-- THE RESULT ARRAY after the run is the block gather of x. -/
theorem final (hO : Ok m) (hw : InRange m) (c : Dev nD) :
    (dats m hO 0 c).arrAt 1 (cfgM m hO).N = gathered (xs m c) (tab m) :=
  (dats m hO 0 c).arrAt_eq_of_cover 1 (gathered (xs m c) (tab m)) (fun t _ => flushed_eq m hO hw c t) (cover m hO)

/-! ## The run -/

/-- THE KERNEL'S RUN with its result named: under the launch's side condition and with the table's words in range,
    every weakly fair execution terminates with the result at the block gather of the arguments, the arguments
    unchanged. -/
theorem run (hO : Ok m) (hw : InRange m) :
    θ_run defs (onTc (τ := τ) (main (F := Ideal))) ⟨m, fun _ => 0, ρ⟩ fun r => ∀ c : Dev nD,
      r.2.mem ((c.tc : Thread nD τ).loc main_v6) = gathered (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ hq c => ?_) (run_main m ρ hO)
  obtain rfl : c = 0 := Subsingleton.elim _ _
  exact ⟨((hq 0).1 1).trans (final m hO hw 0),
    ((hq 0).1 0).trans (((dats m hO 0 0).arrAt_in 0 rfl _).trans ((A_eq m hO 0 0).trans (V_main_arg0 m 0))),
    ((hq 0).2 main_arg1 (by decide : main_arg1 ∈ Pipeline.restRefs sig spec0)).trans (V_main_arg1 m 0)⟩

end AtIdeal

end Cert.KernelIdeal.BlockValue

end
-- ==== Proof.ReferenceGather.lean ====
/-
  The reference computes the block gather.

  The reference turns each row (b, y, u) of the table into a start index (b', 0, y', u') for a gather of
  [1, 64, 16, 16] slices of x: b' = b wrapped when negative (b + 8), y' = 16·y and u' = 16·u wrapped when negative
  (+ 256). The gather reads each start index signed and clamps it so that the slice fits: to 0 … 7, 0 … 0, 0 … 240,
  0 … 240. When the row's words are in range (b < 8, y < 16, u < 16 read unsigned) no wrap is taken, the products
  16·y, 16·u do not overflow and are at most 240, and no clamp binds, so entry (n, c, r, s) of the result is
  x[b, c, 16·y + r, 16·u + s].
-/
import proofs.«168149_j41420664602704_1_alg».proof.Proof.Gen.ReferenceIdeal.Read
import proofs.«168149_j41420664602704_1_alg».proof.Proof.TableColumns
import Idealize.ShloMosaic.Lib.ValueIdx
import Idealize.ShloMosaic.Lib.Pipeline.Value

set_option maxRecDepth 16384

noncomputable section

namespace Cert.ReferenceIdeal.BlockValue

open Cert.ReferenceIdeal Cert.ReferenceIdeal.Gen Cert.ReferenceIdeal.Read Cert.BlockGather Cert.Lib.IndexWords
open Idealize.ShloMosaic Idealize.ShloMosaic.ValueIdx

variable {F : FTy → Type} [FloatOps F]

abbrev G := gather_S8x64x256x256_S1024x4_S1024x1x64x16x16_1234_n_n_n_0123_1_1641616

/-- The start-index component k of result entry (n, ·, c, r, s) is read at (n, k) of the index array. -/
theorem siIdx_eq (n : Fin 1024) (z : Fin 1) (c : Fin 64) (r s : Fin 16) (k : Fin 4) :
    G.siIdx (ix5 n z c r s) ⟨k.val, k.isLt⟩ = ix2 n k := by
  funext b
  match b with
  | ⟨0, _⟩ => rfl
  | ⟨1, _⟩ => rfl

/-- THE GATHER READ AT AN INDEX: entry (n, ·, c, r, s) is x at the start index of row n — each component read signed and
    clamped so that the slice fits (to 0 … 7, 0 … 0, 0 … 240, 0 … 240) — plus the offsets (0, c, r, s). The caller names
    the source index by its coordinates. -/
theorem gather_apply {α : Type} (x : S8x64x256x256.Idx → α) (idx : IVec S1024x4 32) (n : Fin 1024) (z : Fin 1) (c : Fin 64) (r s : Fin 16)
    (i : S8x64x256x256.Idx)
    (h0 : (i 0).val = min (idx (ix2 n 0)).toInt.toNat 7)
    (h1 : (i 1).val = c.val)
    (h2 : (i 2).val = min (idx (ix2 n 2)).toInt.toNat 240 + r.val)
    (h3 : (i 3).val = min (idx (ix2 n 3)).toInt.toNat 240 + s.val) :
    Host.gather G x idx (ix5 n z c r s) = x i := by
  have hz : z.val = 0 := by have := z.isLt; omega
  have e : ∀ (q : S1024x4.Idx) (k : Fin 4) (B o : Nat), q = ix2 n k →
      min (idx q).toInt.toNat B + o = min (idx (ix2 n k)).toInt.toNat B + o := fun q k B o hq => by rw [hq]
  unfold Host.gather
  refine congrArg x (funext fun a => Fin.ext ?_)
  fin_cases a <;>
    simp [GatherDims.operandIdx, GatherDims.start, GatherDims.offCoord, GatherDims.batchCoord, G,
      gather_S8x64x256x256_S1024x4_S1024x1x64x16x16_1234_n_n_n_0123_1_1641616, GatherDims.sKept, Shape.kept]
  · rw [h0]
    exact (e _ 0 7 z.val (siIdx_eq n z c r s 0)).trans (by rw [hz, Nat.add_zero])
  · rw [h1]; rfl
  · rw [h2]
    exact e _ 2 240 r.val (siIdx_eq n z c r s 2)
  · rw [h3]
    exact e _ 3 240 s.val (siIdx_eq n z c r s 3)

/-! ## The start indices -/

/-- The three columns of the table, as the reference takes them. -/
theorem col0 (tab : IVec S1024x3 32) (n : Fin 1024) : val_main_v1 (F := F) tab (ix1 n) = tab (ix2 n 0) := by
  unfold val_main_v1 val_main_v0; exact column_apply tab 0 (by decide) _ _ n
theorem col1 (tab : IVec S1024x3 32) (n : Fin 1024) : val_main_v3 (F := F) tab (ix1 n) = tab (ix2 n 1) := by
  unfold val_main_v3 val_main_v2; exact column_apply tab 1 (by decide) _ _ n
theorem col2 (tab : IVec S1024x3 32) (n : Fin 1024) : val_main_v5 (F := F) tab (ix1 n) = tab (ix2 n 2) := by
  unfold val_main_v5 val_main_v4; exact column_apply tab 2 (by decide) _ _ n

/-- A select whose condition is not set takes its second branch. -/
theorem select_not {α : Type} (c : BitVec 1) (a b : α) (h : ¬ (c = 1)) : Scalar.select c a b = b := if_neg h

/-- The batch component: a word below 8 is not wrapped, and read signed it is itself. -/
theorem startB (tab : IVec S1024x3 32) (n : Fin 1024) (hb : word tab n 0 < 8) :
    (val_main_v14 (F := F) tab (ix1 n)).toInt.toNat = word tab n 0 := by
  have hb' : (tab (ix2 n 0)).toNat < 8 := hb
  rw [val_main_v14_apply, val_main_v11_apply, val_main_v10_apply, val_main_c_1_apply, col0,
    select_not _ _ _ (not_slt_zero _ (by omega))]
  exact toInt_toNat _ (by omega)

/-- A block index below 16 scaled by 16 does not overflow, is not wrapped, and read signed is 16 times the index. -/
theorem scaled (w : BitVec 32) (hw : w.toNat < 16) :
    (Scalar.select (IntOp.cmpi .slt (IntOp.muli w 16#32) 0#32) (IntOp.addi (IntOp.muli w 16#32) 256#32) (IntOp.muli w 16#32)).toInt.toNat
      = w.toNat * 16 := by
  have e : (IntOp.muli w 16#32).toNat = w.toNat * 16 := muli_toNat w 16 (by omega)
  rw [select_not _ _ _ (not_slt_zero _ (by rw [e]; omega)), toInt_toNat _ (by rw [e]; omega), e]

theorem startY (tab : IVec S1024x3 32) (n : Fin 1024) (hy : word tab n 1 < 16) :
    (val_main_v19 (F := F) tab (ix1 n)).toInt.toNat = word tab n 1 * 16 := by
  rw [val_main_v19_apply, val_main_v16_apply, val_main_v18_apply, val_main_v7_apply, val_main_v15_apply, val_main_c_3_apply,
    val_main_v17_apply, val_main_c_4_apply, val_main_v6_apply, val_main_c_apply, col1]
  exact scaled _ hy

theorem startU (tab : IVec S1024x3 32) (n : Fin 1024) (hu : word tab n 2 < 16) :
    (val_main_v24 (F := F) tab (ix1 n)).toInt.toNat = word tab n 2 * 16 := by
  rw [val_main_v24_apply, val_main_v21_apply, val_main_v23_apply, val_main_v9_apply, val_main_v20_apply, val_main_c_5_apply,
    val_main_v22_apply, val_main_c_6_apply, val_main_v8_apply, val_main_c_0_apply, col2]
  exact scaled _ hu

/-- The column of the [1024, 1] form of a vector reads the vector. -/
theorem unitCol (n : Fin 1024) : idx_main_v25 (ix2 n (0 : Fin 1)) = ix1 n := by
  funext a; match a with | ⟨0, _⟩ => rfl

/-- The four [1024, 1] columns the reference joins along axis 1 into the [1024, 4] array of start indices. -/
abbrev columns (tab : IVec S1024x3 32) : List ((s : Shape) × (s.Idx → BitVec 32)) :=
  [⟨S1024x1, val_main_v25 (F := F) tab⟩, ⟨S1024x1, val_main_v26 (F := F)⟩, ⟨S1024x1, val_main_v27 (F := F) tab⟩, ⟨S1024x1, val_main_v28 (F := F) tab⟩]

/-- Component k of the start index of row n: column k at row n. -/
theorem joined0 (tab : IVec S1024x3 32) (n : Fin 1024) :
    val_main_v29 (F := F) tab (ix2 n 0) = val_main_v14 (F := F) tab (ix1 n) := by
  unfold val_main_v29
  refine (concatenate_apply_piece (1 : Fin 2) (columns (F := F) tab) _ (ix2 n (0 : Fin 4)) 0 (by show 0 < 4; omega) S1024x1 _ rfl rfl 0 rfl (ix2 n (0 : Fin 1)) ?_ rfl).trans ?_
  · intro b hb
    match b with
    | ⟨0, _⟩ => rfl
    | ⟨1, _⟩ => exact absurd rfl hb
  · rw [val_main_v25_apply, unitCol]
theorem joined2 (tab : IVec S1024x3 32) (n : Fin 1024) :
    val_main_v29 (F := F) tab (ix2 n 2) = val_main_v19 (F := F) tab (ix1 n) := by
  unfold val_main_v29
  refine (concatenate_apply_piece (1 : Fin 2) (columns (F := F) tab) _ (ix2 n (2 : Fin 4)) 2 (by show 2 < 4; omega) S1024x1 _ rfl rfl 2 rfl (ix2 n (0 : Fin 1)) ?_ rfl).trans ?_
  · intro b hb
    match b with
    | ⟨0, _⟩ => rfl
    | ⟨1, _⟩ => exact absurd rfl hb
  · rw [val_main_v27_apply]; exact congrArg _ (unitCol n)
theorem joined3 (tab : IVec S1024x3 32) (n : Fin 1024) :
    val_main_v29 (F := F) tab (ix2 n 3) = val_main_v24 (F := F) tab (ix1 n) := by
  unfold val_main_v29
  refine (concatenate_apply_piece (1 : Fin 2) (columns (F := F) tab) _ (ix2 n (3 : Fin 4)) 3 (by show 3 < 4; omega) S1024x1 _ rfl rfl 3 rfl (ix2 n (0 : Fin 1)) ?_ rfl).trans ?_
  · intro b hb
    match b with
    | ⟨0, _⟩ => rfl
    | ⟨1, _⟩ => exact absurd rfl hb
  · rw [val_main_v28_apply]; exact congrArg _ (unitCol n)

/-! ## The reference's result -/

/-- THE REFERENCE IS THE BLOCK GATHER, on a table whose words are in range. -/
theorem reference_eq (x : FVec F S8x64x256x256 .f32) (tab : IVec S1024x3 32)
    (hw : ∀ n : Fin 1024, word tab n 0 < 8 ∧ word tab n 1 < 16 ∧ word tab n 2 < 16) :
    val_main_v31 (F := F) x tab = gathered x tab := by
  funext j
  obtain ⟨n, c, r, s, rfl⟩ : ∃ (n : Fin 1024) (c : Fin 64) (r s : Fin 16), j = ix4 n c r s := ⟨j 0, j 1, j 2, j 3, eq_ix4 j⟩
  obtain ⟨hb, hy, hu⟩ := hw n
  rw [gathered_apply]
  unfold val_main_v31
  refine (shapeCast_apply _ _ (ix4 n c r s) (ix5 n (0 : Fin 1) c r s) ?_).trans ?_
  · rw [Shape.rowMajor_val_five, Shape.rowMajor_val_four]
    show (((n.val * 1 + 0) * 64 + c.val) * 16 + r.val) * 16 + s.val = ((n.val * 64 + c.val) * 16 + r.val) * 16 + s.val
    omega
  unfold val_main_v30
  refine gather_apply x _ n 0 c r s (src tab n c r s) ?_ rfl ?_ ?_
  · rw [joined0, startB tab n hb]
    show (batchOf tab n).val = _
    rw [batchOf_val tab n hb]; omega
  · rw [joined2, startY tab n hy]
    show (inPlane (blockRow tab n) r).val = _
    show 16 * (blockRow tab n).val + r.val = _
    rw [blockRow_val tab n hy]; omega
  · rw [joined3, startU tab n hu]
    show 16 * (blockCol tab n).val + s.val = _
    rw [blockCol_val tab n hu]; omega

end Cert.ReferenceIdeal.BlockValue

end
-- ==== Proof.lean ====
/-
  A gather of spatial blocks, by block selection on the chip against a gather on the host.

  x has shape [8, 64, 256, 256]; row n of the table [1024, 3] names a batch element b, a block row y and a block
  column u. Both programs compute out[n, c, r, s] = x[b, c, 16·y + r, 16·u + s] (BlockGatherSpec).

  The kernel runs one grid point per row of the table. Its launch stages, at point n, the full-width row block
  (b, 0, y, 0) of x in blocks of [1, 64, 16, 256], the block index read from the prefetched tables; the body views the
  256 columns as sixteen chunks of sixteen, multiplies by the 0/1 mask of chunk u and sums over the chunks
  (SelectColumns: on the extended reals a · 1 = a, a · 0 = 0 for every a, so the sum is chunk u, infinite entries
  included). The reference scales (y, u) by 16, wraps negative components and hands the start indices to a gather
  that clamps them so that a [1, 64, 16, 16] slice fits (ReferenceGather).

  The two agree on the DOMAIN the table is meant for, 0 ≤ b < 8, 0 ≤ y < 16, 0 ≤ u < 16, which the precondition
  states beside the finiteness of x. It is needed twice: the launch reads block (b, 0, y, 0) of x, which exists only
  for b < 8 and y < 16 (the frames of both kernel programs: Tables), and outside it the mask selects nothing where the
  reference's clamp selects the last block. The finiteness of x is not used.

  The frames of the two kernel programs are the generated class-R frame certificates, under the launch's side
  condition, which is proved from the precondition (Tables); the reference's frame is its generated run; the ideal pass
  rewrote nothing, so the kernel's idealization is the kernel read at the extended reals.
-/
import proofs.«168149_j41420664602704_1_alg».proof.Defs
import proofs.«168149_j41420664602704_1_alg».proof.Proof.Gen.Kernel
import proofs.«168149_j41420664602704_1_alg».proof.Proof.Gen.KernelIdeal
import proofs.«168149_j41420664602704_1_alg».proof.Proof.Gen.ReferenceIdeal
import proofs.«168149_j41420664602704_1_alg».proof.Proof.Gen.Pre_finite_inputs
import proofs.«168149_j41420664602704_1_alg».proof.Proof.Gen.ReferenceIdeal.Run
import proofs.«168149_j41420664602704_1_alg».proof.Proof.Gen.ReferenceIdeal.Read
import proofs.«168149_j41420664602704_1_alg».proof.Proof.KernelFrame
import proofs.«168149_j41420664602704_1_alg».proof.Proof.KernelTables
import proofs.«168149_j41420664602704_1_alg».proof.Proof.KernelIdealFrame
import proofs.«168149_j41420664602704_1_alg».proof.Proof.KernelIdealTables
import proofs.«168149_j41420664602704_1_alg».proof.Proof.KernelIdealValue
import proofs.«168149_j41420664602704_1_alg».proof.Proof.ReferenceGather
import Idealize.ShloMosaic.Adequacy
import Idealize.ShloMosaic.Init

noncomputable section

namespace Cert.Proof

open Idealize.ShloMosaic Idealize.ShloMosaic.TcCoe Idealize.SL.Sem Cert.BlockGather

/-- The word-level kernel runs and keeps its arguments: the launch's side condition holds of a table in range. -/
theorem frame_kernel : Cert.frame_Kernel := fun m ρ h =>
  Cert.Kernel.GenP.frame m ρ (Cert.Kernel.Tables.ok_of_pre m h)

/-- So does the kernel read at the extended reals. -/
theorem frame_kernelIdeal : Cert.frame_KernelIdeal := fun m ρ h =>
  Cert.KernelIdeal.GenP.frame m ρ (Cert.KernelIdeal.Tables.ok_of_pre m h)

/-- The reference is a straight line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on x and the table, both programs end with the block gather of them. -/
theorem algebraic : Cert.algebraic_KernelIdeal_ReferenceIdeal := by
  intro m ρ m' ρ' h hagree
  have hw : Cert.KernelIdeal.BlockValue.InRange m := fun n => Cert.KernelIdeal.Tables.words m h n
  refine ⟨fun c => gathered (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.BlockValue.run m ρ (Cert.KernelIdeal.Tables.ok_of_pre m h) hw, ?_⟩
  refine (θ_run Cert.ReferenceIdeal.defs _ _).mono (fun _ hq c => ⟨?_, (hq c).2⟩)
    (Cert.ReferenceIdeal.Value.run (F := Ideal) m' ρ')
  obtain rfl : c = 0 := Subsingleton.elim _ _
  rw [(hq 0).1, Cert.ReferenceIdeal.Read.val_main_v31_eq, (hagree 0).1, (hagree 0).2]
  exact Cert.ReferenceIdeal.BlockValue.reference_eq _ _ hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
